-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v162) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x2x800000 : Shape := ⟨3, ![3, 2, 800000]⟩
abbrev S3x800000 : Shape := ⟨2, ![3, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x800000 : S_.BroadcastsInDim S3x800000 (![] : Fin 0 → Fin S3x800000.rank)
  reducesTo_S3x800000_S_d0_1 : S3x800000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128x128 .f32) (main_arg6 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S50000x128 .f32) (main_arg1 : IVec S3x2x800000 32) (main_arg2 : FVec F S3x800000 .f32) (main_arg3 : FVec F S128x128 .f32) (main_arg4 : FVec F S128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x800000 .f32 := Host.absf main_arg2
  let main_cst_0 : FVec F S_ .f32 := constant S_ .f32 0x7F800000#32
  let main_v5 : FVec F S3x800000 .f32 := broadcastInDim S3x800000 ![] bcast_S_S3x800000 main_cst_0
  let main_v6 : IVec S3x800000 1 := cmpf .olt main_v4 main_v5
  let main_c_1 : IVec S_ 1 := constantI S_ 1 1#1
  let main_v7 : IVec S_ 1 := (fun x v => Host.reduce IntOp.andi x v reducesTo_S3x800000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S3x2x800000 : Shape := ⟨3, ![3, 2, 800000]⟩
abbrev S3x800000 : Shape := ⟨2, ![3, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S5000x128 : Shape := ⟨2, ![5000, 128]⟩
abbrev S_ : Shape := ⟨0, ![]⟩
abbrev S1x1x800000 : Shape := ⟨3, ![1, 1, 800000]⟩
abbrev S800000 : Shape := ⟨1, ![800000]⟩
abbrev S1x800000 : Shape := ⟨2, ![1, 800000]⟩
abbrev S1x128x128 : Shape := ⟨3, ![1, 128, 128]⟩
abbrev S50000 : Shape := ⟨1, ![50000]⟩
abbrev S800000x1 : Shape := ⟨2, ![800000, 1]⟩
abbrev S800000x128 : Shape := ⟨2, ![800000, 128]⟩

abbrev nBuf : Space → Nat
  | .hbm => 213
  | .vmem => 24
  | .smem => 0
  | _ => 0

abbrev hbmTy0_0 (i : Nat) : BufTy := match i % 128 with
  | 0 => ⟨S50000x128, .f32⟩
  | 1 => ⟨S3x2x800000, .i32⟩
  | 2 => ⟨S3x800000, .f32⟩
  | 3 => ⟨S128x128, .f32⟩
  | 4 => ⟨S128, .f32⟩
  | 5 => ⟨S3x128x128, .f32⟩
  | 6 => ⟨S3x128, .f32⟩
  | 7 => ⟨S128x128, .f32⟩
  | 8 => ⟨S1x128, .f32⟩
  | 9 => ⟨S50000x128, .f32⟩
  | 10 => ⟨S_, .f32⟩
  | 11 => ⟨S128, .f32⟩
  | 12 => ⟨S1x1x800000, .i32⟩
  | 13 => ⟨S800000, .i32⟩
  | 14 => ⟨S1x1x800000, .i32⟩
  | 15 => ⟨S800000, .i32⟩
  | 16 => ⟨S1x800000, .f32⟩
  | 17 => ⟨S800000, .f32⟩
  | 18 => ⟨S1x128x128, .f32⟩
  | 19 => ⟨S128x128, .f32⟩
  | 20 => ⟨S128x128, .f32⟩
  | 21 => ⟨S1x128, .f32⟩
  | 22 => ⟨S50000x128, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x1x800000, .i32⟩
  | 80 => ⟨S800000, .i32⟩
  | 81 => ⟨S1x1x800000, .i32⟩
  | 82 => ⟨S800000, .i32⟩
  | 83 => ⟨S1x800000, .f32⟩
  | 84 => ⟨S800000, .f32⟩
  | 85 => ⟨S1x128x128, .f32⟩
  | 86 => ⟨S128x128, .f32⟩
  | 87 => ⟨S128x128, .f32⟩
  | 88 => ⟨S1x128, .f32⟩
  | 89 => ⟨S50000x128, .f32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x1, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x1x800000, .i32⟩
  | 19 => ⟨S800000, .i32⟩
  | 20 => ⟨S1x1x800000, .i32⟩
  | 21 => ⟨S800000, .i32⟩
  | 22 => ⟨S1x800000, .f32⟩
  | 23 => ⟨S800000, .f32⟩
  | 24 => ⟨S1x128x128, .f32⟩
  | 25 => ⟨S128x128, .f32⟩
  | 26 => ⟨S128x128, .f32⟩
  | 27 => ⟨S1x128, .f32⟩
  | 28 => ⟨S50000x128, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call1_cst : Ref sig .tc := ⟨.hbm, 76, rfl⟩
abbrev main_call1_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_v74 : Ref sig .tc := ⟨.hbm, 101, rfl⟩
abbrev main_c_12 : Ref sig .tc := ⟨.hbm, 102, rfl⟩
abbrev main_v75 : Ref sig .tc := ⟨.hbm, 103, rfl⟩
abbrev main_v76 : Ref sig .tc := ⟨.hbm, 104, rfl⟩
abbrev main_c_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_call3_cst : Ref sig .tc := ⟨.hbm, 143, rfl⟩
abbrev main_call3_v0 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_19 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_20 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_21 : Ref sig .tc := ⟨.hbm, 165, rfl⟩
abbrev main_call4_v0 : Ref sig .tc := ⟨.hbm, 166, rfl⟩
abbrev main_call4_v1 : Ref sig .tc := ⟨.hbm, 167, rfl⟩
abbrev main_v127 : Ref sig .tc := ⟨.hbm, 168, rfl⟩
abbrev main_c_22 : Ref sig .tc := ⟨.hbm, 169, rfl⟩
abbrev main_v128 : Ref sig .tc := ⟨.hbm, 170, rfl⟩
abbrev main_v129 : Ref sig .tc := ⟨.hbm, 171, rfl⟩
abbrev main_c_23 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_24 : Ref sig .tc := ⟨.hbm, 179, rfl⟩
abbrev main_v136 : Ref sig .tc := ⟨.hbm, 180, rfl⟩
abbrev main_v137 : Ref sig .tc := ⟨.hbm, 181, rfl⟩
abbrev main_c_25 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_26 : Ref sig .tc := ⟨.hbm, 189, rfl⟩
abbrev main_v144 : Ref sig .tc := ⟨.hbm, 190, rfl⟩
abbrev main_v145 : Ref sig .tc := ⟨.hbm, 191, rfl⟩
abbrev main_c_27 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_28 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_call5_cst : Ref sig .tc := ⟨.hbm, 210, rfl⟩
abbrev main_call5_v0 : Ref sig .tc := ⟨.hbm, 211, rfl⟩
abbrev main_v162 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  slices_S3x800000_S1x800000_0_0 : S3x800000.Slices ![0, 0] S1x800000
  shapeCasts_S1x800000_S800000 : S1x800000.ShapeCasts S800000
  slices_S3x128x128_S1x128x128_0_0_0 : S3x128x128.Slices ![0, 0, 0] S1x128x128
  shapeCasts_S1x128x128_S128x128 : S1x128x128.ShapeCasts S128x128
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x128x128_S1x128x128_1_0_0 : S3x128x128.Slices ![1, 0, 0] S1x128x128
  slices_S3x128_S1x128_1_0 : S3x128.Slices ![1, 0] S1x128
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  slices_S3x128x128_S1x128x128_2_0_0 : S3x128x128.Slices ![2, 0, 0] S1x128x128
  slices_S3x128_S1x128_2_0 : S3x128.Slices ![2, 0] S1x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v120) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S3x2x800000 : Shape := ⟨3, ![3, 2, 800000]⟩
abbrev S3x800000 : Shape := ⟨2, ![3, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S_ : Shape := ⟨0, ![]⟩
abbrev S1x1x800000 : Shape := ⟨3, ![1, 1, 800000]⟩
abbrev S800000 : Shape := ⟨1, ![800000]⟩
abbrev S1x800000 : Shape := ⟨2, ![1, 800000]⟩
abbrev S1x128x128 : Shape := ⟨3, ![1, 128, 128]⟩
abbrev S50000 : Shape := ⟨1, ![50000]⟩
abbrev S800000x1 : Shape := ⟨2, ![800000, 1]⟩
abbrev S800000x128 : Shape := ⟨2, ![800000, 128]⟩

abbrev nBuf : Space → Nat
  | .hbm => 213
  | .vmem => 0
  | .smem => 0
  | _ => 0

abbrev hbmTy0_0 (i : Nat) : BufTy := match i % 128 with
  | 0 => ⟨S50000x128, .f32⟩
  | 1 => ⟨S3x2x800000, .i32⟩
  | 2 => ⟨S3x800000, .f32⟩
  | 3 => ⟨S128x128, .f32⟩
  | 4 => ⟨S128, .f32⟩
  | 5 => ⟨S3x128x128, .f32⟩
  | 6 => ⟨S3x128, .f32⟩
  | 7 => ⟨S128x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x1x800000, .i32⟩
  | 16 => ⟨S800000, .i32⟩
  | 17 => ⟨S1x1x800000, .i32⟩
  | 18 => ⟨S800000, .i32⟩
  | 19 => ⟨S1x800000, .f32⟩
  | 20 => ⟨S800000, .f32⟩
  | 21 => ⟨S1x128x128, .f32⟩
  | 22 => ⟨S128x128, .f32⟩
  | 23 => ⟨S1x128, .f32⟩
  | 24 => ⟨S128, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S128x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x1x800000, .i32⟩
  | 82 => ⟨S800000, .i32⟩
  | 83 => ⟨S1x1x800000, .i32⟩
  | 84 => ⟨S800000, .i32⟩
  | 85 => ⟨S1x800000, .f32⟩
  | 86 => ⟨S800000, .f32⟩
  | 87 => ⟨S1x128x128, .f32⟩
  | 88 => ⟨S128x128, .f32⟩
  | 89 => ⟨S1x128, .f32⟩
  | 90 => ⟨S128, .f32⟩
  | 91 => ⟨S_, .f32⟩
  | 92 => ⟨S50000, .f32⟩
  | 93 => ⟨S800000x1, .i32⟩
  | 94 => ⟨S50000, .f32⟩
  | 95 => ⟨S_, .f32⟩
  | 96 => ⟨S50000, .f32⟩
  | 97 => ⟨S50000, .i1⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S800000, .f32⟩
  | 123 => ⟨S128x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S800000x1, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S1x1x800000, .i32⟩
  | 20 => ⟨S800000, .i32⟩
  | 21 => ⟨S1x1x800000, .i32⟩
  | 22 => ⟨S800000, .i32⟩
  | 23 => ⟨S1x800000, .f32⟩
  | 24 => ⟨S800000, .f32⟩
  | 25 => ⟨S1x128x128, .f32⟩
  | 26 => ⟨S128x128, .f32⟩
  | 27 => ⟨S1x128, .f32⟩
  | 28 => ⟨S128, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S128x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x1, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call2_cst : Ref sig .tc := ⟨.hbm, 78, rfl⟩
abbrev main_call2_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_v74 : Ref sig .tc := ⟨.hbm, 102, rfl⟩
abbrev main_c_11 : Ref sig .tc := ⟨.hbm, 103, rfl⟩
abbrev main_v75 : Ref sig .tc := ⟨.hbm, 104, rfl⟩
abbrev main_v76 : Ref sig .tc := ⟨.hbm, 105, rfl⟩
abbrev main_c_12 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_13 : Ref sig .tc := ⟨.hbm, 113, rfl⟩
abbrev main_v83 : Ref sig .tc := ⟨.hbm, 114, rfl⟩
abbrev main_v84 : Ref sig .tc := ⟨.hbm, 115, rfl⟩
abbrev main_c_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_15 : Ref sig .tc := ⟨.hbm, 125, rfl⟩
abbrev main_v93 : Ref sig .tc := ⟨.hbm, 126, rfl⟩
abbrev main_v94 : Ref sig .tc := ⟨.hbm, 127, rfl⟩
abbrev main_c_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_17 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call4_cst : Ref sig .tc := ⟨.hbm, 144, rfl⟩
abbrev main_call4_v0 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_18 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_19 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_20 : Ref sig .tc := ⟨.hbm, 165, rfl⟩
abbrev main_call5_v0 : Ref sig .tc := ⟨.hbm, 166, rfl⟩
abbrev main_call5_v1 : Ref sig .tc := ⟨.hbm, 167, rfl⟩
abbrev main_v126 : Ref sig .tc := ⟨.hbm, 168, rfl⟩
abbrev main_c_21 : Ref sig .tc := ⟨.hbm, 169, rfl⟩
abbrev main_v127 : Ref sig .tc := ⟨.hbm, 170, rfl⟩
abbrev main_v128 : Ref sig .tc := ⟨.hbm, 171, rfl⟩
abbrev main_c_22 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_23 : Ref sig .tc := ⟨.hbm, 179, rfl⟩
abbrev main_v135 : Ref sig .tc := ⟨.hbm, 180, rfl⟩
abbrev main_v136 : Ref sig .tc := ⟨.hbm, 181, rfl⟩
abbrev main_c_24 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_25 : Ref sig .tc := ⟨.hbm, 191, rfl⟩
abbrev main_v145 : Ref sig .tc := ⟨.hbm, 192, rfl⟩
abbrev main_v146 : Ref sig .tc := ⟨.hbm, 193, rfl⟩
abbrev main_c_26 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_27 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_call6_cst : Ref sig .tc := ⟨.hbm, 210, rfl⟩
abbrev main_call6_v0 : Ref sig .tc := ⟨.hbm, 211, rfl⟩
abbrev main_v161 : Ref sig .tc := ⟨.hbm, 212, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  slices_S3x800000_S1x800000_0_0 : S3x800000.Slices ![0, 0] S1x800000
  shapeCasts_S1x800000_S800000 : S1x800000.ShapeCasts S800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x128x128_S1x128x128_1_0_0 : S3x128x128.Slices ![1, 0, 0] S1x128x128
  slices_S3x128_S1x128_1_0 : S3x128.Slices ![1, 0] S1x128
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run, with every buffer named. @main is twenty segments — stretches of host operations and
  four matrix-unit regions — and the contents of the TensorCore's buffers at each segment boundary are a fold from
  the launch memory: a host stretch applies its operations, a region replaces its output array by what its ten
  write-backs leave and keeps every other buffer. Launched from any memory, every weakly fair execution terminates
  without a fault and EVERY unscoped buffer ends holding the fold's last contents. From that one fact the four result
  arrays are read at their buffers, and the seven argument arrays end as launched.

  The launch is the library's theorem for a program of several regions, applied to the segments of this program. It
  asks four things of its caller, proved below one by one: the launch resource yields the pipelines' staging tokens;
  each boundary's thread state is the next segment's precondition; the first thread state is made from the launch
  memory; and the last thread state, held beside a final machine state, says what that state's memory holds.
-/
import proofs.«106707_j49323404427966_1_alg».proof.Proof.Gen.KernelIdeal.Frame

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of a final memory on core `c`: every unscoped buffer at the last boundary's contents. -/
abbrev EndsAt (c : Dev nD) (s : MemSt nD τ sig (Elt F)) : Prop :=
  ∀ b ∈ Pipeline.ucRefs τ sig, s.mem (((c : Thread nD τ)).1, b) = W20 m ρ c b

-- the library theorem's implicit arguments are found by unifying its conclusion with the statement, which takes
-- unfolding plain definitions in a metavariable's type
set_option backward.isDefEq.respectTransparency.types false in
/-- Every weakly fair execution of @main terminates, nothing faulting, and every unscoped buffer of every core ends
    at the last boundary's contents. -/
theorem run_all : θ_run defs (onTc (τ := τ) (main (F := F))) ⟨m, fun _ => 0, ρ⟩
    (fun r => ∀ c : Dev nD, EndsAt m ρ c r.2) := by
  refine Pipeline.θ_run_regions_kit (pcfgs (F := F)) adm (pdats m ρ) () cellOf_inj emb₁ defs₀ 𝒱₀ L lv m ρ main (segs m ρ)
    (fun c Q => by rw [main_run m ρ c]) ?once (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ?chain) (hinit := ?first) (QY := EndsAt m ρ) (hfin := ?last) (hQ := fun s h => h)
  case once =>
    -- each of the four pipelines is entered by exactly one segment
    simp only [segs, Pipeline.Seg.pipes_host, Pipeline.Seg.pipes_region, Pipeline.Seg.pipes_nil]
    decide
  case tokens =>
    -- the launch element IS the staging cells' initial element; no core carries a ghost resource of its own
    iintro Hown
    imodintro
    isplitl [Hown]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hown
    · iapply (show (BI.emp : sProp 𝕄) ⊢ bigSep Finset.univ (fun _ : Dev nD => (BI.emp : sProp 𝕄)) from by
        rw [BI.bigSep_emp_const])
      iempintro
  case chain =>
    -- a segment is entered from exactly the state the one before it leaves (the boundaries' contents are the fold's by
    -- name), so twenty of the twenty-one links are identities; after the last stretch the generator register moves
    -- beside the buffers and the core's debt record, which holds nothing, stays apart
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => ?_⟩
    dsimp only [Pipeline.Seg.post, hseg, Pipeline.HostSeg.ofOps]
    iintro ⟨Hbufs, Hreg, Howes⟩
    isplitr [Howes]
    · isplitl [Hbufs]
      · iexact Hbufs
      · iexact Hreg
    · iexact Howes
  case first =>
    -- core by core: the launch deals the core its unscoped buffers at the launch memory (the fold's first contents),
    -- its generator register and an empty debt record; the rest of the deal is not used
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hreg, -⟩, -⟩
    imodintro
    isplitl [Hbufs]
    · iexact Hbufs
    isplitl [Hreg]
    · iexists _
      iexact Hreg
    · iexists ∅
      iexact Howes
  case last =>
    -- buffers held at known contents beside a machine state: that state's memory holds those contents
    intro c s'
    iintro ⟨⟨Hbufs, -⟩, Hstate⟩
    unfold StableHlo.held
    imodintro
    iapply (pointsTo_read_all (Pipeline.ucRefs τ sig) (fun b => (((c : Thread nD τ)).1, b)) (W20 m ρ c) s')
    isplitl [Hbufs] <;> iassumption

/-- The run read at the four result buffers and the seven argument buffers. -/
theorem run_results : θ_run defs (onTc (τ := τ) (main (F := F))) ⟨m, fun _ => 0, ρ⟩ (fun r => ∀ c : Dev nD,
      r.2.mem ((c.tc : Thread nD τ).loc main_v2) = W20 m ρ c (Proc.devRef .tc main_v2)
      ∧ r.2.mem ((c.tc : Thread nD τ).loc main_v56) = W20 m ρ c (Proc.devRef .tc main_v56)
      ∧ r.2.mem ((c.tc : Thread nD τ).loc main_v109) = W20 m ρ c (Proc.devRef .tc main_v109)
      ∧ r.2.mem ((c.tc : Thread nD τ).loc main_v162) = W20 m ρ c (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v2 (by decide)), h c _ (mem_uc main_v56 (by decide)),
     h c _ (mem_uc main_v109 (by decide)), h c _ (mem_uc main_v162 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c)⟩)
    (run_all m ρ)

end Cert.KernelIdeal.Fold

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.DenseSpec.lean ====
/-
  The dense layer that every matrix-unit region of this program computes, as ONE function of whole arrays over the
  extended reals. For `x` of `M` rows and 128 columns, a 128 × 128 matrix `w` and a single row `b`:

      affine x w b (r, q) = Σ_{k < 128} x (r, k) · w (k, q) + b (0, q)

  and the first layer clips it below at the float zero, `affineRelu = max (affine …) 0`. The zero is kept as the
  32-bit word both programs print; it is only evaluated where a zero bias row is added (`a + 0 = a`, which holds
  for every extended real, the infinities included — so no finiteness of the inputs is ever needed).
  The row count `M` is a parameter because the same formula is read twice: on a 5000-row block inside a region and
  on the whole 50000-row array on the host.
-/
import proofs.«106707_j49323404427966_1_alg».proof.Proof.LibMatProd
import Idealize.ShloMosaic.PureOps.Ideal.Laws

noncomputable section

namespace Cert.Gcn.Dense

open Idealize.ShloMosaic Idealize.ShloMosaic.ValueIdx

/-- `x · w + b`, the row `b` added to every row of the product. -/
def affine {M : Nat} (x : (⟨2, ![M, 128]⟩ : Shape).Idx → EReal) (w : (⟨2, ![128, 128]⟩ : Shape).Idx → EReal)
    (b : (⟨2, ![1, 128]⟩ : Shape).Idx → EReal) : (⟨2, ![M, 128]⟩ : Shape).Idx → EReal :=
  fun i => prod x w i + b (ix2 0 (i 1))

/-- `max (x · w + b) 0`, the zero being the float word `0x00000000`. -/
def affineRelu {M : Nat} (x : (⟨2, ![M, 128]⟩ : Shape).Idx → EReal) (w : (⟨2, ![128, 128]⟩ : Shape).Idx → EReal)
    (b : (⟨2, ![1, 128]⟩ : Shape).Idx → EReal) : (⟨2, ![M, 128]⟩ : Shape).Idx → EReal :=
  fun i => max (affine x w b i) (Ideal.ofBits .f32 0x00000000#32)

/-- With a bias row that is the float zero everywhere, the layer is the bare product: `a + 0 = a` on the extended
    reals. -/
theorem affine_zero_bias {M : Nat} (x : (⟨2, ![M, 128]⟩ : Shape).Idx → EReal) (w : (⟨2, ![128, 128]⟩ : Shape).Idx → EReal)
    (b : (⟨2, ![1, 128]⟩ : Shape).Idx → EReal) (hb : ∀ i, b i = Ideal.ofBits .f32 0x00000000#32) :
    affine x w b = prod x w := by
  funext i
  unfold affine
  rw [hb, Ideal.ofBits_zero_f32, add_zero]

end Cert.Gcn.Dense

end
-- ==== Proof.DenseBlock.lean ====
/-
  One grid point of a dense region, read at the ideal instance. The body loads a 5000-row block `x0` of the input,
  the whole 128 × 128 matrix `x1` and the bias row `x2`, narrows the first two to bf16 (the identity on extended
  reals), multiplies on the matrix unit into a zero accumulator, adds the bias row to every row and — in the first
  region only — clips at zero. Its stored value is therefore the layer's formula on the block's rows:

      payload (p, q) = Σ_{k < 128} x0 (p, k) · x1 (k, q) + x2 (0, q)          (then max with 0 in region 0).

  The matrix unit's contraction runs over the dimension record's own index set; it is re-indexed to `k < 128`
  through the record's four coordinate facts.
-/
import proofs.«106707_j49323404427966_1_alg».proof.Proof.Gen.KernelIdeal
import proofs.«106707_j49323404427966_1_alg».proof.Proof.Gen.KernelIdeal.Skeleton
import proofs.«106707_j49323404427966_1_alg».proof.Proof.DenseSpec
import Idealize.ShloMosaic.Lib.ValueIdx
import Idealize.ShloMosaic.Lib.Pipeline.Value
import Idealize.ShloMosaic.PureOps.Ideal.Laws

noncomputable section

namespace Cert.Gcn.Dense

open Idealize.ShloMosaic Idealize.ShloMosaic.ValueIdx Cert.KernelIdeal Cert.KernelIdeal.Gen

/-- The block matrix product's dimension record: left axis 1 against right axis 0. -/
abbrev blockDot : DotDims S5000x128 S128x128 S5000x128 := dot_S5000x128_S128x128_S5000x128_1_0_0_1_n_n

theorem blockDot_l0 (i : S5000x128.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
theorem blockDot_l1 (i : S5000x128.Idx) (q : blockDot.contr.Idx) : (blockDot.lhsIdx i q 1).val = (q ⟨0, by decide⟩).val :=
  blockDot.lhsIdx_val_of_single rfl i q
theorem blockDot_r0 (i : S5000x128.Idx) (q : blockDot.contr.Idx) : (blockDot.rhsIdx i q 0).val = (q ⟨0, by decide⟩).val :=
  blockDot.rhsIdx_val_of_single rfl i q
theorem blockDot_r1 (i : S5000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- The matrix unit into a zero accumulator, on the narrowed operands, is the plain product of the loaded blocks. -/
theorem block_matmul (x0 : Vec Ideal S5000x128 .f32) (x1 : Vec Ideal S128x128 .f32) (j : S5000x128.Idx) :
    matmul (F := Ideal) blockDot none (truncf .bf16 x0 bitsLt_bf16_f32)
      (truncf .bf16 (shapeCast S128x128 x1 shapeCasts_S128x128_S128x128) bitsLt_bf16_f32)
      (constant S5000x128 .f32 0x00000000#32) j = prod (M := 5000) (K := 128) (N := 128) x0 x1 j := by
  rw [shapeCast_self]
  exact (Ideal.matmul_constant_zero_apply blockDot none (truncf .bf16 x0 bitsLt_bf16_f32) (truncf .bf16 x1 bitsLt_bf16_f32) j).trans
    (sum_contr_eq_prod (M := 5000) (K := 128) (N := 128) blockDot rfl rfl blockDot_l0 blockDot_l1 blockDot_r0 blockDot_r1 x0 x1 j)

/-- The bias row spread over the block's rows, read at `(p, q)`, is the row's entry `q`. -/
theorem block_bias (x2 : Vec Ideal S1x128 .f32) (j : S5000x128.Idx) :
    broadcastTo S5000x128 (shapeCast S1x128 x2 shapeCasts_S1x128_S1x128) broadcasts_S1x128_S5000x128 j = x2 (ix2 0 (j 1)) := by
  rw [shapeCast_self]
  refine broadcastTo_apply x2 broadcasts_S1x128_S5000x128 j (ix2 0 (j 1)) fun a => ?_
  match a with
  | ⟨0, _⟩ => rfl
  | ⟨1, _⟩ => show (j 1).val = if (128 : Nat) = 1 then 0 else (j 1).val; rw [if_neg (by decide)]

/-- Regions 1–3: the stored block is `x0 · x1 + x2`. -/
theorem pay_affine (x0 : Vec Ideal S5000x128 .f32) (x1 : Vec Ideal S128x128 .f32) (x2 : Vec Ideal S1x128 .f32) :
    k1_pay1 (F := Ideal) x0 x1 x2 = affine (M := 5000) x0 x1 x2 := by
  funext j
  show matmul (F := Ideal) blockDot none (truncf .bf16 x0 bitsLt_bf16_f32)
      (truncf .bf16 (shapeCast S128x128 x1 shapeCasts_S128x128_S128x128) bitsLt_bf16_f32)
      (constant S5000x128 .f32 0x00000000#32) j
    + broadcastTo S5000x128 (shapeCast S1x128 x2 shapeCasts_S1x128_S1x128) broadcasts_S1x128_S5000x128 j = _
  rw [block_matmul, block_bias]
  rfl

theorem pay2_affine (x0 : Vec Ideal S5000x128 .f32) (x1 : Vec Ideal S128x128 .f32) (x2 : Vec Ideal S1x128 .f32) :
    k2_pay1 (F := Ideal) x0 x1 x2 = affine (M := 5000) x0 x1 x2 := pay_affine x0 x1 x2

theorem pay3_affine (x0 : Vec Ideal S5000x128 .f32) (x1 : Vec Ideal S128x128 .f32) (x2 : Vec Ideal S1x128 .f32) :
    k3_pay1 (F := Ideal) x0 x1 x2 = affine (M := 5000) x0 x1 x2 := pay_affine x0 x1 x2

/-- Region 0: the stored block is `max (x0 · x1 + x2) 0`. -/
theorem pay_affineRelu (x0 : Vec Ideal S5000x128 .f32) (x1 : Vec Ideal S128x128 .f32) (x2 : Vec Ideal S1x128 .f32) :
    k0_pay1 (F := Ideal) x0 x1 x2 = affineRelu (M := 5000) x0 x1 x2 := by
  funext j
  show max (k1_pay1 (F := Ideal) x0 x1 x2 j) (Ideal.ofBits .f32 0x00000000#32) = _
  rw [pay_affine]
  rfl

end Cert.Gcn.Dense

end
-- ==== Proof.DenseArray0.lean ====
/-
  From blocks to the whole array, for region 0 (the first layer, with the clip at zero). The region runs ten grid points; point `t` stages rows
  `5000 t … 5000 t + 4999` of the input, the whole 128 × 128 matrix and the whole bias row, and writes back rows
  `5000 t … 5000 t + 4999` of the output. Each written block is the block of ONE whole-array function — the layer's
  formula of DenseSpec on the arrays as the region finds them — and the ten blocks tile the 50000 rows, so after the
  region the output array IS that function. The entry contents `V` are a parameter: nothing here knows what the host
  wrote before the region.
-/
import proofs.«106707_j49323404427966_1_alg».proof.Proof.Gen.KernelIdeal.Frame
import proofs.«106707_j49323404427966_1_alg».proof.Proof.DenseBlock
import Idealize.ShloMosaic.Lib.Pipeline.Value

noncomputable section

namespace Cert.Gcn.Dense.Region0

open Idealize.ShloMosaic Idealize.ShloMosaic.ValueIdx Idealize.ShloMosaic.TcCoe Idealize.SL.Sem
open Idealize.ShloMosaic.Pipeline (Dat)
open Cert.KernelIdeal Cert.KernelIdeal.Gen Cert.Gcn.Dense

variable (V : (c : Dev nD) → (b : Ref sig .tc) → Buf (Elt Ideal) ((c : Thread nD τ).loc b))

/-- An array of f32 contents, read as a function to the extended reals (the identity: it only fixes the type the
    arithmetic is written at). -/
abbrev asReal {s : Shape} (f : s.Idx → EReal) : s.Idx → EReal := f

theorem hz : (![0, 0] : Fin 2 → Nat) = fun _ => 0 := funext fun a => by fin_cases a <;> rfl

/-! ## Region 0: the array `main_v2` after the region -/

/-- The printed index maps, decided over the ten grid points: the input block and the output block move together
    down the rows (block `t` at point `t`), every column block and the blocks of the matrix and of the bias row
    stay at 0. -/
theorem idx0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- What the body leaves in the output's staging buffer is the layer's formula on the loaded blocks. -/
theorem out0_eq (x0 : Vec Ideal S5000x128 .f32) (x1 : Vec Ideal S128x128 .f32) (x2 : Vec Ideal S1x128 .f32) :
    out0_3 (F := Ideal) x0 x1 x2 = affineRelu (M := 5000) x0 x1 x2 := by
  unfold out0_3
  rw [View.canon_unit_zero hz]
  simp only [View.ld_unit_zero (S := S5000x128) hz, View.ld_unit_zero (S := S128x128) hz, View.ld_unit_zero (S := S1x128) hz]
  exact pay_affineRelu x0 x1 x2

/-- WHAT POINT `t` WRITES BACK is block `t` of the layer's formula on the WHOLE arrays as the region finds them:
    row `p` of block `t` is row `5000 t + p` of the input, and the matrix and the bias row are read whole. -/
theorem flushed0 (c : Dev nD) (t : Fin cfg0.N) :
    (dat0 V c).flushed 3 t = ((cfg0.win 3).blk t).view.read (Elt Ideal)
      (affineRelu (M := 50000) (V c main_arg0) (V c main_v0) (V c main_v1)) := by
  show (cfg0.win 3).cut (grid0.coords t) ((dat0 V c).after 3 t) = _
  rw [after0_3, out0_eq]
  obtain ⟨e0, e1, e2, e3, e4, e5, e6, e7⟩ := idx0 t
  funext j
  have h0 : ∀ k : Fin 128, ((cfg0.win 0).blk t).view.emb (ix2 (j 0) k) = ix2 ((((cfg0.win 3).blk t).view.emb j) 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 0 (j 1)) = ix2 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  show max ((∑ k : Fin 128, asReal (s := S50000x128) (V c main_arg0) (((cfg0.win 0).blk t).view.emb (ix2 (j 0) k)) * asReal (s := S128x128) (V c main_v0) (((cfg0.win 1).blk t).view.emb (ix2 k (j 1))))
      + asReal (s := S1x128) (V c main_v1) (((cfg0.win 2).blk t).view.emb (ix2 0 (j 1)))) (Ideal.ofBits .f32 0x00000000#32)
    = max ((∑ k : Fin 128, asReal (s := S50000x128) (V c main_arg0) (ix2 ((((cfg0.win 3).blk t).view.emb j) 0) k) * asReal (s := S128x128) (V c main_v0) (ix2 k ((((cfg0.win 3).blk t).view.emb j) 1)))
      + asReal (s := S1x128) (V c main_v1) (ix2 0 ((((cfg0.win 3).blk t).view.emb j) 1))) (Ideal.ofBits .f32 0x00000000#32)
  rw [h2]
  exact congrArg (fun s => max (s + _) _) (Finset.sum_congr rfl fun k _ => by rw [h0 k, h1 k] <;> rfl)

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- The ten blocks of 5000 rows tile the 50000 rows: row `r` is in the block of point `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  refine ⟨⟨(i 0).val / 5000, hlt⟩, flush0_3 _, ?_⟩
  rw [mem_blk0]
  obtain ⟨e0, e1, e2, e3, e4, e5, e6, e7⟩ := idx0 ⟨(i 0).val / 5000, hlt⟩
  have e7' : win0_3.index ⟨(i 0).val / 5000, hlt⟩ (0 : Fin 2) = (i 0).val / 5000 := e7
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    omega

/-- THE ARRAY after region 0: the layer's formula on the arrays the region was entered with. -/
theorem array0 (c : Dev nD) :
    (dat0 V c).arrAt 3 cfg0.N = affineRelu (M := 50000) (V c main_arg0) (V c main_v0) (V c main_v1) :=
  (dat0 V c).arrAt_eq_of_cover 3 _ (fun t _ => flushed0 V c t) (cover0)

end Cert.Gcn.Dense.Region0

end
-- ==== Proof.DenseArray1.lean ====
/-
  From blocks to the whole array, for region 1 (the first convolution's projection). The region runs ten grid points; point `t` stages rows
  `5000 t … 5000 t + 4999` of the input, the whole 128 × 128 matrix and the whole bias row, and writes back rows
  `5000 t … 5000 t + 4999` of the output. Each written block is the block of ONE whole-array function — the layer's
  formula of DenseSpec on the arrays as the region finds them — and the ten blocks tile the 50000 rows, so after the
  region the output array IS that function. The entry contents `V` are a parameter: nothing here knows what the host
  wrote before the region.
-/
import proofs.«106707_j49323404427966_1_alg».proof.Proof.Gen.KernelIdeal.Frame
import proofs.«106707_j49323404427966_1_alg».proof.Proof.DenseBlock
import Idealize.ShloMosaic.Lib.Pipeline.Value

noncomputable section

namespace Cert.Gcn.Dense.Region1

open Idealize.ShloMosaic Idealize.ShloMosaic.ValueIdx Idealize.ShloMosaic.TcCoe Idealize.SL.Sem
open Idealize.ShloMosaic.Pipeline (Dat)
open Cert.KernelIdeal Cert.KernelIdeal.Gen Cert.Gcn.Dense

variable (V : (c : Dev nD) → (b : Ref sig .tc) → Buf (Elt Ideal) ((c : Thread nD τ).loc b))

/-- An array of f32 contents, read as a function to the extended reals (the identity: it only fixes the type the
    arithmetic is written at). -/
abbrev asReal {s : Shape} (f : s.Idx → EReal) : s.Idx → EReal := f

theorem hz : (![0, 0] : Fin 2 → Nat) = fun _ => 0 := funext fun a => by fin_cases a <;> rfl

/-! ## Region 1: the array `main_v14` after the region -/

/-- The printed index maps, decided over the ten grid points: the input block and the output block move together
    down the rows (block `t` at point `t`), every column block and the blocks of the matrix and of the bias row
    stay at 0. -/
theorem idx1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- What the body leaves in the output's staging buffer is the layer's formula on the loaded blocks. -/
theorem out1_eq (x0 : Vec Ideal S5000x128 .f32) (x1 : Vec Ideal S128x128 .f32) (x2 : Vec Ideal S1x128 .f32) :
    out1_3 (F := Ideal) x0 x1 x2 = affine (M := 5000) x0 x1 x2 := by
  unfold out1_3
  rw [View.canon_unit_zero hz]
  simp only [View.ld_unit_zero (S := S5000x128) hz, View.ld_unit_zero (S := S128x128) hz, View.ld_unit_zero (S := S1x128) hz]
  exact pay_affine x0 x1 x2

/-- WHAT POINT `t` WRITES BACK is block `t` of the layer's formula on the WHOLE arrays as the region finds them:
    row `p` of block `t` is row `5000 t + p` of the input, and the matrix and the bias row are read whole. -/
theorem flushed1 (c : Dev nD) (t : Fin cfg1.N) :
    (dat1 V c).flushed 3 t = ((cfg1.win 3).blk t).view.read (Elt Ideal)
      (affine (M := 50000) (V c main_arg0) (V c main_v12) (V c main_v13)) := by
  show (cfg1.win 3).cut (grid1.coords t) ((dat1 V c).after 3 t) = _
  rw [after1_3, out1_eq]
  obtain ⟨e0, e1, e2, e3, e4, e5, e6, e7⟩ := idx1 t
  funext j
  have h0 : ∀ k : Fin 128, ((cfg1.win 0).blk t).view.emb (ix2 (j 0) k) = ix2 ((((cfg1.win 3).blk t).view.emb j) 0) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ∀ k : Fin 128, ((cfg1.win 1).blk t).view.emb (ix2 k (j 1)) = ix2 k ((((cfg1.win 3).blk t).view.emb j) 1) := fun k => by
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  show (∑ k : Fin 128, asReal (s := S50000x128) (V c main_arg0) (((cfg1.win 0).blk t).view.emb (ix2 (j 0) k)) * asReal (s := S128x128) (V c main_v12) (((cfg1.win 1).blk t).view.emb (ix2 k (j 1))))
      + asReal (s := S1x128) (V c main_v13) (((cfg1.win 2).blk t).view.emb (ix2 0 (j 1)))
    = (∑ k : Fin 128, asReal (s := S50000x128) (V c main_arg0) (ix2 ((((cfg1.win 3).blk t).view.emb j) 0) k) * asReal (s := S128x128) (V c main_v12) (ix2 k ((((cfg1.win 3).blk t).view.emb j) 1)))
      + asReal (s := S1x128) (V c main_v13) (ix2 0 ((((cfg1.win 3).blk t).view.emb j) 1))
  rw [h2]
  exact congrArg (fun s => s + _) (Finset.sum_congr rfl fun k _ => by rw [h0 k, h1 k] <;> rfl)

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v14).slice (win1_3.rect t)).set ↔ _
  rw [View.set_slice_whole, Rect.mem_set_unit]
  exact Iff.rfl

/-- The ten blocks of 5000 rows tile the 50000 rows: row `r` is in the block of point `r / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_3 _, ?_⟩
  rw [mem_blk1]
  obtain ⟨e0, e1, e2, e3, e4, e5, e6, e7⟩ := idx1 ⟨(i 0).val / 5000, hlt⟩
  have e7' : win1_3.index ⟨(i 0).val / 5000, hlt⟩ (0 : Fin 2) = (i 0).val / 5000 := e7
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val ∧ (i 1).val < win1_3.index ⟨(i 0).val / 5000, hlt⟩ (1 : Fin 2) * 128 + 128
    omega

/-- THE ARRAY after region 1: the layer's formula on the arrays the region was entered with. -/
theorem array1 (c : Dev nD) :
    (dat1 V c).arrAt 3 cfg1.N = affine (M := 50000) (V c main_arg0) (V c main_v12) (V c main_v13) :=
  (dat1 V c).arrAt_eq_of_cover 3 _ (fun t _ => flushed1 V c t) (cover1)

end Cert.Gcn.Dense.Region1

end
-- ==== Proof.DenseArray2.lean ====
/-
  From blocks to the whole array, for region 2 (the second convolution's projection). The region runs ten grid points; point `t` stages rows
  `5000 t … 5000 t + 4999` of the input, the whole 128 × 128 matrix and the whole bias row, and writes back rows
  `5000 t … 5000 t + 4999` of the output. Each written block is the block of ONE whole-array function — the layer's
  formula of DenseSpec on the arrays as the region finds them — and the ten blocks tile the 50000 rows, so after the
  region the output array IS that function. The entry contents `V` are a parameter: nothing here knows what the host
  wrote before the region.
-/
import proofs.«106707_j49323404427966_1_alg».proof.Proof.Gen.KernelIdeal.Frame
import proofs.«106707_j49323404427966_1_alg».proof.Proof.DenseBlock
import Idealize.ShloMosaic.Lib.Pipeline.Value

noncomputable section

namespace Cert.Gcn.Dense.Region2

open Idealize.ShloMosaic Idealize.ShloMosaic.ValueIdx Idealize.ShloMosaic.TcCoe Idealize.SL.Sem
open Idealize.ShloMosaic.Pipeline (Dat)
open Cert.KernelIdeal Cert.KernelIdeal.Gen Cert.Gcn.Dense

variable (V : (c : Dev nD) → (b : Ref sig .tc) → Buf (Elt Ideal) ((c : Thread nD τ).loc b))

/-- An array of f32 contents, read as a function to the extended reals (the identity: it only fixes the type the
    arithmetic is written at). -/
abbrev asReal {s : Shape} (f : s.Idx → EReal) : s.Idx → EReal := f

theorem hz : (![0, 0] : Fin 2 → Nat) = fun _ => 0 := funext fun a => by fin_cases a <;> rfl

/-! ## Region 2: the array `main_v67` after the region -/

/-- The printed index maps, decided over the ten grid points: the input block and the output block move together
    down the rows (block `t` at point `t`), every column block and the blocks of the matrix and of the bias row
    stay at 0. -/
theorem idx2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val :=
  (by decide +kernel : ∀ t : Fin grid2.N, _)

/-- What the body leaves in the output's staging buffer is the layer's formula on the loaded blocks. -/
theorem out2_eq (x0 : Vec Ideal S5000x128 .f32) (x1 : Vec Ideal S128x128 .f32) (x2 : Vec Ideal S1x128 .f32) :
    out2_3 (F := Ideal) x0 x1 x2 = affine (M := 5000) x0 x1 x2 := by
  unfold out2_3
  rw [View.canon_unit_zero hz]
  simp only [View.ld_unit_zero (S := S5000x128) hz, View.ld_unit_zero (S := S128x128) hz, View.ld_unit_zero (S := S1x128) hz]
  exact pay2_affine x0 x1 x2

/-- WHAT POINT `t` WRITES BACK is block `t` of the layer's formula on the WHOLE arrays as the region finds them:
    row `p` of block `t` is row `5000 t + p` of the input, and the matrix and the bias row are read whole. -/
theorem flushed2 (c : Dev nD) (t : Fin cfg2.N) :
    (dat2 V c).flushed 3 t = ((cfg2.win 3).blk t).view.read (Elt Ideal)
      (affine (M := 50000) (V c main_arg0) (V c main_v65) (V c main_v66)) := by
  show (cfg2.win 3).cut (grid2.coords t) ((dat2 V c).after 3 t) = _
  rw [after2_3, out2_eq]
  obtain ⟨e0, e1, e2, e3, e4, e5, e6, e7⟩ := idx2 t
  funext j
  have h0 : ∀ k : Fin 128, ((cfg2.win 0).blk t).view.emb (ix2 (j 0) k) = ix2 ((((cfg2.win 3).blk t).view.emb j) 0) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 k (j 1)) = ix2 k ((((cfg2.win 3).blk t).view.emb j) 1) := fun k => by
    funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  have h2 : ((cfg2.win 2).blk t).view.emb (ix2 0 (j 1)) = ix2 0 ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  show (∑ k : Fin 128, asReal (s := S50000x128) (V c main_arg0) (((cfg2.win 0).blk t).view.emb (ix2 (j 0) k)) * asReal (s := S128x128) (V c main_v65) (((cfg2.win 1).blk t).view.emb (ix2 k (j 1))))
      + asReal (s := S1x128) (V c main_v66) (((cfg2.win 2).blk t).view.emb (ix2 0 (j 1)))
    = (∑ k : Fin 128, asReal (s := S50000x128) (V c main_arg0) (ix2 ((((cfg2.win 3).blk t).view.emb j) 0) k) * asReal (s := S128x128) (V c main_v65) (ix2 k ((((cfg2.win 3).blk t).view.emb j) 1)))
      + asReal (s := S1x128) (V c main_v66) (ix2 0 ((((cfg2.win 3).blk t).view.emb j) 1))
  rw [h2]
  exact congrArg (fun s => s + _) (Finset.sum_congr rfl fun k _ => by rw [h0 k, h1 k] <;> rfl)

/-- An index of the array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v67).slice (win2_3.rect t)).set ↔ _
  rw [View.set_slice_whole, Rect.mem_set_unit]
  exact Iff.rfl

/-- The ten blocks of 5000 rows tile the 50000 rows: row `r` is in the block of point `r / 5000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have hlt : (i 0).val / 5000 < cfg2.N := by rw [hN]; omega
  refine ⟨⟨(i 0).val / 5000, hlt⟩, flush2_3 _, ?_⟩
  rw [mem_blk2]
  obtain ⟨e0, e1, e2, e3, e4, e5, e6, e7⟩ := idx2 ⟨(i 0).val / 5000, hlt⟩
  have e7' : win2_3.index ⟨(i 0).val / 5000, hlt⟩ (0 : Fin 2) = (i 0).val / 5000 := e7
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    omega
  | ⟨1, _⟩ =>
    show win2_3.index ⟨(i 0).val / 5000, hlt⟩ (1 : Fin 2) * 128 ≤ (i 1).val ∧ (i 1).val < win2_3.index ⟨(i 0).val / 5000, hlt⟩ (1 : Fin 2) * 128 + 128
    omega

/-- THE ARRAY after region 2: the layer's formula on the arrays the region was entered with. -/
theorem array2 (c : Dev nD) :
    (dat2 V c).arrAt 3 cfg2.N = affine (M := 50000) (V c main_arg0) (V c main_v65) (V c main_v66) :=
  (dat2 V c).arrAt_eq_of_cover 3 _ (fun t _ => flushed2 V c t) (cover2)

end Cert.Gcn.Dense.Region2

end
-- ==== Proof.DenseArray3.lean ====
/-
  From blocks to the whole array, for region 3 (the third convolution's projection). The region runs ten grid points; point `t` stages rows
  `5000 t … 5000 t + 4999` of the input, the whole 128 × 128 matrix and the whole bias row, and writes back rows
  `5000 t … 5000 t + 4999` of the output. Each written block is the block of ONE whole-array function — the layer's
  formula of DenseSpec on the arrays as the region finds them — and the ten blocks tile the 50000 rows, so after the
  region the output array IS that function. The entry contents `V` are a parameter: nothing here knows what the host
  wrote before the region.
-/
import proofs.«106707_j49323404427966_1_alg».proof.Proof.Gen.KernelIdeal.Frame
import proofs.«106707_j49323404427966_1_alg».proof.Proof.DenseBlock
import Idealize.ShloMosaic.Lib.Pipeline.Value

noncomputable section

namespace Cert.Gcn.Dense.Region3

open Idealize.ShloMosaic Idealize.ShloMosaic.ValueIdx Idealize.ShloMosaic.TcCoe Idealize.SL.Sem
open Idealize.ShloMosaic.Pipeline (Dat)
open Cert.KernelIdeal Cert.KernelIdeal.Gen Cert.Gcn.Dense

variable (V : (c : Dev nD) → (b : Ref sig .tc) → Buf (Elt Ideal) ((c : Thread nD τ).loc b))

/-- An array of f32 contents, read as a function to the extended reals (the identity: it only fixes the type the
    arithmetic is written at). -/
abbrev asReal {s : Shape} (f : s.Idx → EReal) : s.Idx → EReal := f

theorem hz : (![0, 0] : Fin 2 → Nat) = fun _ => 0 := funext fun a => by fin_cases a <;> rfl

/-! ## Region 3: the array `main_v120` after the region -/

/-- The printed index maps, decided over the ten grid points: the input block and the output block move together
    down the rows (block `t` at point `t`), every column block and the blocks of the matrix and of the bias row
    stay at 0. -/
theorem idx3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val :=
  (by decide +kernel : ∀ t : Fin grid3.N, _)

/-- What the body leaves in the output's staging buffer is the layer's formula on the loaded blocks. -/
theorem out3_eq (x0 : Vec Ideal S5000x128 .f32) (x1 : Vec Ideal S128x128 .f32) (x2 : Vec Ideal S1x128 .f32) :
    out3_3 (F := Ideal) x0 x1 x2 = affine (M := 5000) x0 x1 x2 := by
  unfold out3_3
  rw [View.canon_unit_zero hz]
  simp only [View.ld_unit_zero (S := S5000x128) hz, View.ld_unit_zero (S := S128x128) hz, View.ld_unit_zero (S := S1x128) hz]
  exact pay3_affine x0 x1 x2

/-- WHAT POINT `t` WRITES BACK is block `t` of the layer's formula on the WHOLE arrays as the region finds them:
    row `p` of block `t` is row `5000 t + p` of the input, and the matrix and the bias row are read whole. -/
theorem flushed3 (c : Dev nD) (t : Fin cfg3.N) :
    (dat3 V c).flushed 3 t = ((cfg3.win 3).blk t).view.read (Elt Ideal)
      (affine (M := 50000) (V c main_arg0) (V c main_v118) (V c main_v119)) := by
  show (cfg3.win 3).cut (grid3.coords t) ((dat3 V c).after 3 t) = _
  rw [after3_3, out3_eq]
  obtain ⟨e0, e1, e2, e3, e4, e5, e6, e7⟩ := idx3 t
  funext j
  have h0 : ∀ k : Fin 128, ((cfg3.win 0).blk t).view.emb (ix2 (j 0) k) = ix2 ((((cfg3.win 3).blk t).view.emb j) 0) k := fun k => by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  have h1 : ∀ k : Fin 128, ((cfg3.win 1).blk t).view.emb (ix2 k (j 1)) = ix2 k ((((cfg3.win 3).blk t).view.emb j) 1) := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  have h2 : ((cfg3.win 2).blk t).view.emb (ix2 0 (j 1)) = ix2 0 ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  show (∑ k : Fin 128, asReal (s := S50000x128) (V c main_arg0) (((cfg3.win 0).blk t).view.emb (ix2 (j 0) k)) * asReal (s := S128x128) (V c main_v118) (((cfg3.win 1).blk t).view.emb (ix2 k (j 1))))
      + asReal (s := S1x128) (V c main_v119) (((cfg3.win 2).blk t).view.emb (ix2 0 (j 1)))
    = (∑ k : Fin 128, asReal (s := S50000x128) (V c main_arg0) (ix2 ((((cfg3.win 3).blk t).view.emb j) 0) k) * asReal (s := S128x128) (V c main_v118) (ix2 k ((((cfg3.win 3).blk t).view.emb j) 1)))
      + asReal (s := S1x128) (V c main_v119) (ix2 0 ((((cfg3.win 3).blk t).view.emb j) 1))
  rw [h2]
  exact congrArg (fun s => s + _) (Finset.sum_congr rfl fun k _ => by rw [h0 k, h1 k] <;> rfl)

/-- An index of the array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v120).slice (win3_3.rect t)).set ↔ _
  rw [View.set_slice_whole, Rect.mem_set_unit]
  exact Iff.rfl

/-- The ten blocks of 5000 rows tile the 50000 rows: row `r` is in the block of point `r / 5000`. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have hlt : (i 0).val / 5000 < cfg3.N := by rw [hN]; omega
  refine ⟨⟨(i 0).val / 5000, hlt⟩, flush3_3 _, ?_⟩
  rw [mem_blk3]
  obtain ⟨e0, e1, e2, e3, e4, e5, e6, e7⟩ := idx3 ⟨(i 0).val / 5000, hlt⟩
  have e7' : win3_3.index ⟨(i 0).val / 5000, hlt⟩ (0 : Fin 2) = (i 0).val / 5000 := e7
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    omega
  | ⟨1, _⟩ =>
    show win3_3.index ⟨(i 0).val / 5000, hlt⟩ (1 : Fin 2) * 128 ≤ (i 1).val ∧ (i 1).val < win3_3.index ⟨(i 0).val / 5000, hlt⟩ (1 : Fin 2) * 128 + 128
    omega

/-- THE ARRAY after region 3: the layer's formula on the arrays the region was entered with. -/
theorem array3 (c : Dev nD) :
    (dat3 V c).arrAt 3 cfg3.N = affine (M := 50000) (V c main_arg0) (V c main_v118) (V c main_v119) :=
  (dat3 V c).arrAt_eq_of_cover 3 _ (fun t _ => flushed3 V c t) (cover3)

end Cert.Gcn.Dense.Region3

end
-- ==== Proof.DenseHost.lean ====
/-
  The reference's side of a dense layer. On the host the layer is one contraction of the whole 50000 × 128 input
  with the transposed weight matrix (left axis 1 against right axis 0), the bias vector broadcast first to a row and
  then down the rows, an addition, and a maximum with the zero constant. Read at `(p, q)` this is

      max (Σ_{k < 128} X (p, k) · Wt (k, q) + b q) 0,

  the same formula as DenseSpec's `affineRelu` when the kernel's bias ROW is the vector `b` laid out as `[1, 128]`.
  For the three convolution projections the host has the bare contraction and the kernel adds a row of zeros:
  `a + 0 = a`.
-/
import proofs.«106707_j49323404427966_1_alg».proof.ReferenceIdeal
import proofs.«106707_j49323404427966_1_alg».proof.Proof.Gen.ReferenceIdeal
import proofs.«106707_j49323404427966_1_alg».proof.Proof.DenseSpec
import Idealize.ShloMosaic.Lib.ValueIdx
import Idealize.ShloMosaic.Lib.Pipeline.Value
import Idealize.ShloMosaic.PureOps.Ideal.Laws

noncomputable section

namespace Cert.Gcn.Dense.Host

open Idealize.ShloMosaic Idealize.ShloMosaic.ValueIdx Cert.ReferenceIdeal Cert.ReferenceIdeal.Gen Cert.Gcn.Dense

/-- The host contraction's dimension record: left axis 1 against right axis 0. -/
abbrev hostDot : DotDims S50000x128 S128x128 S50000x128 := dot_S50000x128_S128x128_S50000x128_1_0_0_1_n_n

theorem hostDot_l0 (i : S50000x128.Idx) (q : hostDot.contr.Idx) : (hostDot.lhsIdx i q 0).val = (i 0).val := by
  unfold DotDims.lhsIdx
  rw [dif_neg (show ¬(0 : Fin S50000x128.rank) ∈ hostDot.lhsBatch by decide),
    dif_pos (show (0 : Fin S50000x128.rank) ∈ hostDot.lhsNonContracting by decide)]
  rfl
theorem hostDot_l1 (i : S50000x128.Idx) (q : hostDot.contr.Idx) : (hostDot.lhsIdx i q 1).val = (q ⟨0, by decide⟩).val :=
  hostDot.lhsIdx_val_of_single rfl i q
theorem hostDot_r0 (i : S50000x128.Idx) (q : hostDot.contr.Idx) : (hostDot.rhsIdx i q 0).val = (q ⟨0, by decide⟩).val :=
  hostDot.rhsIdx_val_of_single rfl i q
theorem hostDot_r1 (i : S50000x128.Idx) (q : hostDot.contr.Idx) : (hostDot.rhsIdx i q 1).val = (i 1).val := by
  unfold DotDims.rhsIdx
  rw [dif_neg (show ¬(1 : Fin S128x128.rank) ∈ hostDot.rhsBatch by decide),
    dif_pos (show (1 : Fin S128x128.rank) ∈ hostDot.rhsNonContracting by decide)]
  rfl

/-- The host's contraction is the plain matrix product. -/
theorem dot_eq_prod (X : FVec Ideal S50000x128 .f32) (Wt : FVec Ideal S128x128 .f32) :
    Host.dotGeneral (F := Ideal) hostDot none X Wt = prod (M := 50000) (K := 128) (N := 128) X Wt := by
  funext i
  simp only [Host.dotGeneral]
  refine (Ideal.dotGeneral_apply _ _ _ _ _ i).trans ?_
  exact sum_contr_eq_prod (M := 50000) (K := 128) (N := 128) hostDot rfl rfl hostDot_l0 hostDot_l1 hostDot_r0 hostDot_r1 X Wt i

/-- The bias vector broadcast to a row and then down the rows, read at `(p, q)`, is its entry `q`. -/
theorem bias_rows (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => ?_)).trans ?_
  · match a with
    | ⟨0, _⟩ => rfl
    | ⟨1, _⟩ => show q.val = if (128 : Nat) = 1 then 0 else q.val; rw [if_neg (by decide)]
  · exact broadcastInDim_apply _ bcast_S128_S1x128_1 b (ix2 (0 : Fin 1) q) (ix1 q) (fun a => match a with
      | ⟨0, _⟩ => by show q.val = if (128 : Nat) = 1 then 0 else q.val; rw [if_neg (by decide)])

/-- THE FIRST LAYER on the host: product, bias broadcast, addition, maximum with zero — the spec's `affineRelu` for any
    bias row `B` that holds the vector `b`. -/
theorem first_layer (X : FVec Ideal S50000x128 .f32) (Wt : FVec Ideal S128x128 .f32) (b : FVec Ideal S128 .f32)
    (B : (⟨2, ![1, 128]⟩ : Shape).Idx → EReal) (hB : ∀ q : Fin 128, B (ix2 (0 : Fin 1) q) = b (ix1 q)) :
    affineRelu (M := 50000) X Wt B
      = maximumf (addf (Host.dotGeneral (F := Ideal) hostDot none X Wt)
            (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32)) := by
  funext i
  obtain ⟨p, q, rfl⟩ : ∃ (p : Fin 50000) (q : Fin 128), i = ix2 p q := ⟨i 0, i 1, eq_ix2 i⟩
  show max (prod (M := 50000) (K := 128) (N := 128) X Wt (ix2 p q) + B (ix2 (0 : Fin 1) q)) (Ideal.ofBits .f32 0x00000000#32)
    = max (Host.dotGeneral (F := Ideal) hostDot none X Wt (ix2 p q)
        + broadcastInDim S50000x128 ![0, 1] bcast_S1x128_S50000x128_0_1 (broadcastInDim S1x128 ![1] bcast_S128_S1x128_1 b) (ix2 p q))
      (Ideal.ofBits .f32 0x00000000#32)
  rw [dot_eq_prod, bias_rows, hB]

/-- A CONVOLUTION'S PROJECTION on the host is the bare contraction; the kernel's layer with a row of zeros for the
    bias is the same array. -/
theorem projection (X : FVec Ideal S50000x128 .f32) (Wt : FVec Ideal S128x128 .f32)
    (B : (⟨2, ![1, 128]⟩ : Shape).Idx → EReal) (hB : ∀ i, B i = Ideal.ofBits .f32 0x00000000#32) :
    affine (M := 50000) X Wt B = Host.dotGeneral (F := Ideal) hostDot none X Wt := by
  rw [affine_zero_bias X Wt B hB, dot_eq_prod]

end Cert.Gcn.Dense.Host

end
-- ==== Proof.KernelFold.lean ====
/-
  Reading the fold. The buffer contents at the boundaries of @main's twenty segments are a fold from the launch memory
  (a host stretch applies its operations; a region replaces its output array and keeps the rest). This module
  says what a REGION does to the fold, in the three forms the reading needs:

    • a buffer the region does not stage keeps its contents;
    • the region's input array (the node features, staged block by block and never written) keeps its contents;
    • the region's OUTPUT array holds the dense layer of the contents the region was entered with — stated in the
      HOST's spelling: for region 0 the contraction, the bias broadcast down the rows, the sum and the maximum with
      zero; for regions 1–3 the bare contraction, the kernel's bias there being a row of zeros written by the host
      (a constant broadcast and a reshape) and `a + 0 = a`.

  With these, and the host operations' own result lemmas, a result buffer's final contents rewrite to a term in which
  every matrix-unit region has become the host operation the reference applies at that place.
-/
import proofs.«106707_j49323404427966_1_alg».proof.Proof.Gen.KernelIdeal.Frame
import proofs.«106707_j49323404427966_1_alg».proof.Proof.DenseArray0
import proofs.«106707_j49323404427966_1_alg».proof.Proof.DenseArray1
import proofs.«106707_j49323404427966_1_alg».proof.Proof.DenseArray2
import proofs.«106707_j49323404427966_1_alg».proof.Proof.DenseArray3
import proofs.«106707_j49323404427966_1_alg».proof.Proof.DenseHost
import proofs.«106707_j49323404427966_1_alg».proof.Proof.Gen.ReferenceIdeal
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Gcn.Dense

/-- Host stretches by the operations' result lemmas (a written buffer at its operation's function of the operands, any
    other buffer untouched, the references' inequalities decided), with the given lemmas for the regions. -/
syntax "fold_simp" "[" Lean.Parser.Tactic.simpLemma,* "]" : tactic
macro_rules
  | `(tactic| fold_simp [$ls,*]) => `(tactic| simp (disch := decide) only [
      W1, W3, W5, W6, W7, W8, W9, W11, W12, W13, W14, W15, W17, W18, W19, W20, V1, V3, V9, V15,
      hostOps0, hostOps1, hostOps2, hostOps2_1, hostOps2_2, hostOps2_3, hostOps2_4, hostOps3, hostOps3_1, hostOps3_2,
      hostOps3_3, hostOps3_4, hostOps4, hostOps4_1, hostOps4_2, hostOps4_3,
      after_cons, after_nil,
      nullary_result', unary_result', binary_result', ternary_result', quaternary_result', reshape_result',
      nullary_result_ne', unary_result_ne', binary_result_ne', ternary_result_ne', quaternary_result_ne', reshape_result_ne',
      $ls,*])

/-! ## What a region keeps: for any float instance -/

section AnyInstance

variable {F : FTy → Type} [FloatOps F] (m : (ℓ : Loc nD τ sig) → Buf (Elt F) ℓ) (ρ : Dev nD → PrngReg)

theorem keep0 (c : Dev nD) (b : Ref sig .tc) (hb : ∀ w, Pipeline.arrRef spec0 w ≠ b) :
    W2 m ρ c (no_index (Proc.devRef .tc b)) = W1 m ρ c (Proc.devRef .tc b) := W2_of_ne m ρ c b hb

theorem input0 (c : Dev nD) : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))

theorem keep1 (c : Dev nD) (b : Ref sig .tc) (hb : ∀ w, Pipeline.arrRef spec1 w ≠ b) :
    W4 m ρ c (no_index (Proc.devRef .tc b)) = W3 m ρ c (Proc.devRef .tc b) := W4_of_ne m ρ c b hb

theorem input1 (c : Dev nD) : W4 m ρ c (no_index (Proc.devRef .tc main_arg0)) = W3 m ρ c (Proc.devRef .tc main_arg0) :=
  (W4_arr m ρ c 0).trans (((dat1 (V3 m ρ) c).arrAt_in 0 rfl _).trans (A_eq1 (V3 m ρ) c 0))

theorem keep2 (c : Dev nD) (b : Ref sig .tc) (hb : ∀ w, Pipeline.arrRef spec2 w ≠ b) :
    W10 m ρ c (no_index (Proc.devRef .tc b)) = W9 m ρ c (Proc.devRef .tc b) := W10_of_ne m ρ c b hb

theorem input2 (c : Dev nD) : W10 m ρ c (no_index (Proc.devRef .tc main_arg0)) = W9 m ρ c (Proc.devRef .tc main_arg0) :=
  (W10_arr m ρ c 0).trans (((dat2 (V9 m ρ) c).arrAt_in 0 rfl _).trans (A_eq2 (V9 m ρ) c 0))

theorem keep3 (c : Dev nD) (b : Ref sig .tc) (hb : ∀ w, Pipeline.arrRef spec3 w ≠ b) :
    W16 m ρ c (no_index (Proc.devRef .tc b)) = W15 m ρ c (Proc.devRef .tc b) := W16_of_ne m ρ c b hb

theorem input3 (c : Dev nD) : W16 m ρ c (no_index (Proc.devRef .tc main_arg0)) = W15 m ρ c (Proc.devRef .tc main_arg0) :=
  (W16_arr m ρ c 0).trans (((dat3 (V15 m ρ) c).arrAt_in 0 rfl _).trans (A_eq3 (V15 m ρ) c 0))

end AnyInstance

/-! ## What a region writes: at the ideal instance, where the matrix unit and the host contraction are one sum -/

variable (m : (ℓ : Loc nD τ sig) → Buf (Elt Ideal) ℓ) (ρ : Dev nD → PrngReg)

/-! ## Region 0 -/

/-- The bias row region 0 is entered with is the bias vector laid out as one row. -/
theorem bias0 (c : Dev nD) (q : Fin 128) :
    V1 m ρ c main_v1 (ix2 (0 : Fin 1) q) = m ((c : Thread nD τ).loc main_arg4) (ix1 q) := by
  have e : V1 m ρ c main_v1 = fun i => shapeCast S1x128 (m ((c : Thread nD τ).loc main_arg4)) shapeCasts_S128_S1x128 i := by
    fold_simp []
    rfl
  rw [e]
  exact shapeCast_a_1a_apply _ _ 0 q

/-- After region 0 its output array is the reference's first layer of the launch contents. -/
theorem output0 (c : Dev nD) :
    W2 m ρ c (no_index (Proc.devRef .tc main_v2))
      = maximumf (addf (Host.dotGeneral (F := Ideal) (φ₁ := .f32) (φ₂ := .f32) Host.hostDot none (W1 m ρ c (Proc.devRef .tc main_arg0)) (W1 m ρ c (Proc.devRef .tc main_v0)))
            (broadcastInDim Cert.ReferenceIdeal.S50000x128 ![0, 1] Cert.ReferenceIdeal.Facts₀.bcast_S1x128_S50000x128_0_1
              (broadcastInDim Cert.ReferenceIdeal.S1x128 ![1] Cert.ReferenceIdeal.Facts₀.bcast_S128_S1x128_1 (m ((c : Thread nD τ).loc main_arg4)))))
          (broadcastInDim Cert.ReferenceIdeal.S50000x128 ![] Cert.ReferenceIdeal.Facts₀.bcast_S_S50000x128 (constant (F := Ideal) Cert.ReferenceIdeal.S_ .f32 0x00000000#32)) :=
  (W2_arr m ρ c 3).trans ((Region0.array0 (V1 m ρ) c).trans
    (Host.first_layer _ _ (m ((c : Thread nD τ).loc main_arg4)) _ (bias0 m ρ c)))

/-! ## Region 1 -/

/-- The bias row region 1 is entered with is zero everywhere: a zero constant broadcast to a vector and reshaped. -/
theorem bias1 (c : Dev nD) (i : S1x128.Idx) : V3 m ρ c main_v13 i = Ideal.ofBits .f32 0x00000000#32 := by
  have e : V3 m ρ c main_v13 = fun i => shapeCast S1x128 (broadcastInDim S128 ![] bcast_S_S128 (constant (F := Ideal) S_ .f32 0x00000000#32)) shapeCasts_S128_S1x128 i := by
    fold_simp [keep0]
    rfl
  rw [e]
  rfl

theorem output1 (c : Dev nD) :
    W4 m ρ c (no_index (Proc.devRef .tc main_v14))
      = Host.dotGeneral (F := Ideal) (φ₁ := .f32) (φ₂ := .f32) Host.hostDot none (W3 m ρ c (Proc.devRef .tc main_arg0)) (W3 m ρ c (Proc.devRef .tc main_v12)) :=
  (W4_arr m ρ c 3).trans ((Region1.array1 (V3 m ρ) c).trans (Host.projection _ _ _ (bias1 m ρ c)))

/-! ## Region 2 -/

theorem bias2 (c : Dev nD) (i : S1x128.Idx) : V9 m ρ c main_v66 i = Ideal.ofBits .f32 0x00000000#32 := by
  have e : V9 m ρ c main_v66 = fun i => shapeCast S1x128 (broadcastInDim S128 ![] bcast_S_S128 (constant (F := Ideal) S_ .f32 0x00000000#32)) shapeCasts_S128_S1x128 i := by
    fold_simp [keep0, keep1]
    rfl
  rw [e]
  rfl

theorem output2 (c : Dev nD) :
    W10 m ρ c (no_index (Proc.devRef .tc main_v67))
      = Host.dotGeneral (F := Ideal) (φ₁ := .f32) (φ₂ := .f32) Host.hostDot none (W9 m ρ c (Proc.devRef .tc main_arg0)) (W9 m ρ c (Proc.devRef .tc main_v65)) :=
  (W10_arr m ρ c 3).trans ((Region2.array2 (V9 m ρ) c).trans (Host.projection _ _ _ (bias2 m ρ c)))

/-! ## Region 3 -/

theorem bias3 (c : Dev nD) (i : S1x128.Idx) : V15 m ρ c main_v119 i = Ideal.ofBits .f32 0x00000000#32 := by
  have e : V15 m ρ c main_v119 = fun i => shapeCast S1x128 (broadcastInDim S128 ![] bcast_S_S128 (constant (F := Ideal) S_ .f32 0x00000000#32)) shapeCasts_S128_S1x128 i := by
    fold_simp [keep0, keep1, keep2]
    rfl
  rw [e]
  rfl

theorem output3 (c : Dev nD) :
    W16 m ρ c (no_index (Proc.devRef .tc main_v120))
      = Host.dotGeneral (F := Ideal) (φ₁ := .f32) (φ₂ := .f32) Host.hostDot none (W15 m ρ c (Proc.devRef .tc main_arg0)) (W15 m ρ c (Proc.devRef .tc main_v118)) :=
  (W16_arr m ρ c 3).trans ((Region3.array3 (V15 m ρ) c).trans (Host.projection _ _ _ (bias3 m ρ c)))

end Cert.KernelIdeal.Fold

end
-- ==== Proof.Result0.lean ====
/-
  Result 0 of the two programs is one array: the first layer, max (x · lin_wᵀ + lin_b) 0. The kernel's result buffer
  is written by region 0 and by nothing after it, so it ends at what region 0 left: read backwards through the later
  regions and host stretches (none of which touches it) the fold's last contents at that buffer are region 0's output
  array, which KernelFold states in the host's spelling — the contraction of the node features with the transposed
  weight matrix, the bias vector broadcast down the rows, the sum, the maximum with zero — over the launch memory.
  That is the term the reference's run ends at. The memories agree on the three arguments it reads.
-/
import proofs.«106707_j49323404427966_1_alg».proof.Proof.KernelFold
import proofs.«106707_j49323404427966_1_alg».proof.Proof.Gen.ReferenceIdeal.Run

set_option maxRecDepth 16384

noncomputable section

namespace Cert.Gcn.Results

open Idealize.ShloMosaic Idealize.ShloMosaic.TcCoe Idealize.SL.Sem
open Idealize.ShloMosaic.StableHlo
open Cert.KernelIdeal.Gen Cert.KernelIdeal.Fold

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

set_option maxHeartbeats 4000000 in
theorem result0 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    maximumf (addf (Host.dotGeneral (F := Ideal) (φ₁ := .f32) (φ₂ := .f32) Cert.ReferenceIdeal.dot_S50000x128_S128x128_S50000x128_1_0_0_1_n_n none
          (m' ((c.tc : Thread Cert.ReferenceIdeal.nD Cert.ReferenceIdeal.τ).loc Cert.ReferenceIdeal.main_arg0))
          (transpose Cert.ReferenceIdeal.S128x128 [1, 0] (m' ((c.tc : Thread Cert.ReferenceIdeal.nD Cert.ReferenceIdeal.τ).loc Cert.ReferenceIdeal.main_arg3)) Cert.ReferenceIdeal.Gen.transposes_S128x128_S128x128_1_0))
        (broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1 (m' ((c.tc : Thread Cert.ReferenceIdeal.nD Cert.ReferenceIdeal.τ).loc Cert.ReferenceIdeal.main_arg4)))))
      (broadcastInDim Cert.ReferenceIdeal.S50000x128 ![] Cert.ReferenceIdeal.Gen.bcast_S_S50000x128 (constant (F := Ideal) Cert.ReferenceIdeal.S_ .f32 0x00000000#32))
    = W20 m ρ c (Proc.devRef .tc Cert.KernelIdeal.main_v2) := by
  rw [h0, h3, h4]
  symm
  fold_simp [keep1, keep2, keep3, output0]

end Cert.Gcn.Results

end
-- ==== Proof.Result1.lean ====
/-
  Result 1 of the two programs is one array (the first graph convolution). The kernel's result buffer ends at the fold's last
  contents; reading the fold backwards — host operations by their result lemmas, each region by KernelFold's three
  facts — turns those contents into a term of host operations over the launch memory in which the region's output
  has become the reference's contraction. That term is, operation for operation, the term the reference's run ends
  at: the scatter of edge weights into degrees, the reciprocal square roots, the two gathers of the normalisation,
  the gather of projected rows, the scatter-add of messages, the bias and the maximum with zero are the same host
  operations on both sides and are never opened. The memories agree on the arguments, so the two terms are equal.
-/
import proofs.«106707_j49323404427966_1_alg».proof.Proof.KernelFold
import proofs.«106707_j49323404427966_1_alg».proof.Proof.Gen.ReferenceIdeal.Run

set_option maxRecDepth 16384

noncomputable section

namespace Cert.Gcn.Results

open Idealize.ShloMosaic Idealize.ShloMosaic.TcCoe Idealize.SL.Sem
open Idealize.ShloMosaic.StableHlo
open Cert.KernelIdeal.Gen Cert.KernelIdeal.Fold

section AnyInstance

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ)

set_option maxHeartbeats 400000000 in
/-- For ANY float instance: if region 1's output array is the host contraction of the arrays the region was entered
    with (`hout`), the kernel's result buffer ends at the reference's result. At an arbitrary instance the host
    operations are opaque, so the two terms are compared operation by operation and nothing is computed. -/
theorem result1_of_region (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hout : W4 m ρ c (Proc.devRef .tc Cert.KernelIdeal.main_v14)
      = Host.dotGeneral (F := F) (φ₁ := .f32) (φ₂ := .f32) Cert.Gcn.Dense.Host.hostDot none
          (W3 m ρ c (Proc.devRef .tc Cert.KernelIdeal.main_arg0)) (W3 m ρ c (Proc.devRef .tc Cert.KernelIdeal.main_v12))) :
    Cert.ReferenceIdeal.Value.res_out1 m' c = W20 m ρ c (Proc.devRef .tc Cert.KernelIdeal.main_v56) := by
  -- the reference's result, back as the fold of its own operations over its launch memory
  have eR : Cert.ReferenceIdeal.Value.res_out1 m' c
      = after (Cert.ReferenceIdeal.Value.ops (F := F)) (launchContents m' c) (Proc.devRef .tc Cert.ReferenceIdeal.main_v57) := by
    symm
    after_results_simp <;> rfl <;> (unfold Cert.ReferenceIdeal.Value.res_main_v57; rfl)
  -- the reference's launch reads, in the kernel's spelling: the memories agree on the arguments
  have e0 : launchContents m' c (Proc.devRef .tc Cert.ReferenceIdeal.main_arg0) = W0 m ρ c (Proc.devRef .tc Cert.KernelIdeal.main_arg0) := h0
  have e1 : launchContents m' c (Proc.devRef .tc Cert.ReferenceIdeal.main_arg1) = W0 m ρ c (Proc.devRef .tc Cert.KernelIdeal.main_arg1) := h1
  have e2 : launchContents m' c (Proc.devRef .tc Cert.ReferenceIdeal.main_arg2) = W0 m ρ c (Proc.devRef .tc Cert.KernelIdeal.main_arg2) := h2
  have e5 : launchContents m' c (Proc.devRef .tc Cert.ReferenceIdeal.main_arg5) = W0 m ρ c (Proc.devRef .tc Cert.KernelIdeal.main_arg5) := h5
  have e6 : launchContents m' c (Proc.devRef .tc Cert.ReferenceIdeal.main_arg6) = W0 m ρ c (Proc.devRef .tc Cert.KernelIdeal.main_arg6) := h6
  rw [eR]
  -- both folds read backwards at once
  fold_simp [Cert.ReferenceIdeal.Value.ops, e0, e1, e2, e5, e6, hout, keep0, keep1, keep2, keep3, input0, input1, input2, input3]
  rfl

end AnyInstance

/-- At the ideal instance region 1's output IS that contraction (KernelFold), so the two results are one array. -/
theorem result1 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out1 m' c = W20 m ρ c (Proc.devRef .tc Cert.KernelIdeal.main_v56) :=
  result1_of_region m ρ m' c h0 h1 h2 h5 h6 (output1 m ρ c)

end Cert.Gcn.Results

end
-- ==== Proof.Result2.lean ====
/-
  Result 2 of the two programs is one array (the second graph convolution). The kernel's result buffer ends at the fold's last
  contents; reading the fold backwards — host operations by their result lemmas, each region by KernelFold's three
  facts — turns those contents into a term of host operations over the launch memory in which the region's output
  has become the reference's contraction. That term is, operation for operation, the term the reference's run ends
  at: the scatter of edge weights into degrees, the reciprocal square roots, the two gathers of the normalisation,
  the gather of projected rows, the scatter-add of messages, the bias and the maximum with zero are the same host
  operations on both sides and are never opened. The memories agree on the arguments, so the two terms are equal.
-/
import proofs.«106707_j49323404427966_1_alg».proof.Proof.KernelFold
import proofs.«106707_j49323404427966_1_alg».proof.Proof.Gen.ReferenceIdeal.Run

set_option maxRecDepth 16384

noncomputable section

namespace Cert.Gcn.Results

open Idealize.ShloMosaic Idealize.ShloMosaic.TcCoe Idealize.SL.Sem
open Idealize.ShloMosaic.StableHlo
open Cert.KernelIdeal.Gen Cert.KernelIdeal.Fold

section AnyInstance

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ)

set_option maxHeartbeats 400000000 in
/-- For ANY float instance: if region 2's output array is the host contraction of the arrays the region was entered
    with (`hout`), the kernel's result buffer ends at the reference's result. At an arbitrary instance the host
    operations are opaque, so the two terms are compared operation by operation and nothing is computed. -/
theorem result2_of_region (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hout : W10 m ρ c (Proc.devRef .tc Cert.KernelIdeal.main_v67)
      = Host.dotGeneral (F := F) (φ₁ := .f32) (φ₂ := .f32) Cert.Gcn.Dense.Host.hostDot none
          (W9 m ρ c (Proc.devRef .tc Cert.KernelIdeal.main_arg0)) (W9 m ρ c (Proc.devRef .tc Cert.KernelIdeal.main_v65))) :
    Cert.ReferenceIdeal.Value.res_out2 m' c = W20 m ρ c (Proc.devRef .tc Cert.KernelIdeal.main_v109) := by
  -- the reference's result, back as the fold of its own operations over its launch memory
  have eR : Cert.ReferenceIdeal.Value.res_out2 m' c
      = after (Cert.ReferenceIdeal.Value.ops (F := F)) (launchContents m' c) (Proc.devRef .tc Cert.ReferenceIdeal.main_v109) := by
    symm
    after_results_simp <;> rfl <;> (unfold Cert.ReferenceIdeal.Value.res_main_v109; rfl)
  -- the reference's launch reads, in the kernel's spelling: the memories agree on the arguments
  have e0 : launchContents m' c (Proc.devRef .tc Cert.ReferenceIdeal.main_arg0) = W0 m ρ c (Proc.devRef .tc Cert.KernelIdeal.main_arg0) := h0
  have e1 : launchContents m' c (Proc.devRef .tc Cert.ReferenceIdeal.main_arg1) = W0 m ρ c (Proc.devRef .tc Cert.KernelIdeal.main_arg1) := h1
  have e2 : launchContents m' c (Proc.devRef .tc Cert.ReferenceIdeal.main_arg2) = W0 m ρ c (Proc.devRef .tc Cert.KernelIdeal.main_arg2) := h2
  have e5 : launchContents m' c (Proc.devRef .tc Cert.ReferenceIdeal.main_arg5) = W0 m ρ c (Proc.devRef .tc Cert.KernelIdeal.main_arg5) := h5
  have e6 : launchContents m' c (Proc.devRef .tc Cert.ReferenceIdeal.main_arg6) = W0 m ρ c (Proc.devRef .tc Cert.KernelIdeal.main_arg6) := h6
  rw [eR]
  -- both folds read backwards at once
  fold_simp [Cert.ReferenceIdeal.Value.ops, e0, e1, e2, e5, e6, hout, keep0, keep1, keep2, keep3, input0, input1, input2, input3]
  rfl

end AnyInstance

/-- At the ideal instance region 2's output IS that contraction (KernelFold), so the two results are one array. -/
theorem result2 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out2 m' c = W20 m ρ c (Proc.devRef .tc Cert.KernelIdeal.main_v109) :=
  result2_of_region m ρ m' c h0 h1 h2 h5 h6 (output2 m ρ c)

end Cert.Gcn.Results

end
-- ==== Proof.Result3.lean ====
/-
  Result 3 of the two programs is one array (the third graph convolution). The kernel's result buffer ends at the fold's last
  contents; reading the fold backwards — host operations by their result lemmas, each region by KernelFold's three
  facts — turns those contents into a term of host operations over the launch memory in which the region's output
  has become the reference's contraction. That term is, operation for operation, the term the reference's run ends
  at: the scatter of edge weights into degrees, the reciprocal square roots, the two gathers of the normalisation,
  the gather of projected rows, the scatter-add of messages, the bias and the maximum with zero are the same host
  operations on both sides and are never opened. The memories agree on the arguments, so the two terms are equal.
-/
import proofs.«106707_j49323404427966_1_alg».proof.Proof.KernelFold
import proofs.«106707_j49323404427966_1_alg».proof.Proof.Gen.ReferenceIdeal.Run

set_option maxRecDepth 16384

noncomputable section

namespace Cert.Gcn.Results

open Idealize.ShloMosaic Idealize.ShloMosaic.TcCoe Idealize.SL.Sem
open Idealize.ShloMosaic.StableHlo
open Cert.KernelIdeal.Gen Cert.KernelIdeal.Fold

section AnyInstance

variable {F : FTy → Type} [FloatOps F]
variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ)

set_option maxHeartbeats 400000000 in
/-- For ANY float instance: if region 3's output array is the host contraction of the arrays the region was entered
    with (`hout`), the kernel's result buffer ends at the reference's result. At an arbitrary instance the host
    operations are opaque, so the two terms are compared operation by operation and nothing is computed. -/
theorem result3_of_region (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hout : W16 m ρ c (Proc.devRef .tc Cert.KernelIdeal.main_v120)
      = Host.dotGeneral (F := F) (φ₁ := .f32) (φ₂ := .f32) Cert.Gcn.Dense.Host.hostDot none
          (W15 m ρ c (Proc.devRef .tc Cert.KernelIdeal.main_arg0)) (W15 m ρ c (Proc.devRef .tc Cert.KernelIdeal.main_v118))) :
    Cert.ReferenceIdeal.Value.res_out3 m' c = W20 m ρ c (Proc.devRef .tc Cert.KernelIdeal.main_v162) := by
  -- the reference's result, back as the fold of its own operations over its launch memory
  have eR : Cert.ReferenceIdeal.Value.res_out3 m' c
      = after (Cert.ReferenceIdeal.Value.ops (F := F)) (launchContents m' c) (Proc.devRef .tc Cert.ReferenceIdeal.main_v161) := by
    symm
    after_results_simp <;> rfl <;> (unfold Cert.ReferenceIdeal.Value.res_main_v161; rfl)
  -- the reference's launch reads, in the kernel's spelling: the memories agree on the arguments
  have e0 : launchContents m' c (Proc.devRef .tc Cert.ReferenceIdeal.main_arg0) = W0 m ρ c (Proc.devRef .tc Cert.KernelIdeal.main_arg0) := h0
  have e1 : launchContents m' c (Proc.devRef .tc Cert.ReferenceIdeal.main_arg1) = W0 m ρ c (Proc.devRef .tc Cert.KernelIdeal.main_arg1) := h1
  have e2 : launchContents m' c (Proc.devRef .tc Cert.ReferenceIdeal.main_arg2) = W0 m ρ c (Proc.devRef .tc Cert.KernelIdeal.main_arg2) := h2
  have e5 : launchContents m' c (Proc.devRef .tc Cert.ReferenceIdeal.main_arg5) = W0 m ρ c (Proc.devRef .tc Cert.KernelIdeal.main_arg5) := h5
  have e6 : launchContents m' c (Proc.devRef .tc Cert.ReferenceIdeal.main_arg6) = W0 m ρ c (Proc.devRef .tc Cert.KernelIdeal.main_arg6) := h6
  rw [eR]
  -- both folds read backwards at once
  fold_simp [Cert.ReferenceIdeal.Value.ops, e0, e1, e2, e5, e6, hout, keep0, keep1, keep2, keep3, input0, input1, input2, input3]
  rfl

end AnyInstance

/-- At the ideal instance region 3's output IS that contraction (KernelFold), so the two results are one array. -/
theorem result3 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_out3 m' c = W20 m ρ c (Proc.devRef .tc Cert.KernelIdeal.main_v162) :=
  result3_of_region m ρ m' c h0 h1 h2 h5 h6 (output3 m ρ c)

end Cert.Gcn.Results

end
-- ==== Proof.lean ====
/-
  A three-layer graph convolution cascade on 50000 nodes with 128 features, against its plain reference.

  Both programs return four arrays. The first is a dense layer, `max (x · lin_wᵀ + lin_b) 0`. Each of the other three
  is a graph convolution: project the features, `h = x · Wᵀ`; scatter the edge weights into node degrees, take
  reciprocal square roots where the degree is positive, and normalise each edge's weight by its two endpoints; gather
  the projected row of each edge's source, scale it, and scatter-add it into the edge's target; add the bias; clip at
  zero.

  The kernel computes the four matrix products on the matrix unit, each as a region of ten grid points over blocks of
  5000 rows, narrowing its operands to bf16 and accumulating in f32 from a zero accumulator; the reference computes
  them as host contractions. On the extended reals a change of float format is the identity and both are the sum
  `Σ_{k < 128} x (r, k) · w (k, q)` in the same order of terms, so no law beyond re-indexing the contraction is
  needed — in particular nothing about finiteness. The first region also adds the bias row and clips, exactly as the
  reference does on the host; the other three add a bias row of zeros that the host built from a zero constant, and
  `a + 0 = a` for every extended real. Everything after a projection — the degree scatter, the normalisation, the
  gather, the scatter-add, the bias and the clip — is the same sequence of host operations in both programs and is
  never opened: once each region's output array is known to be the reference's contraction of the same arrays, the two
  programs' result terms coincide.

  The kernel's run is the several-region launch over this program's segments with every buffer named at the end
  (KernelRun); the reading of those final contents back to the launch memory is KernelFold; the per-region array
  facts are DenseArray0–3 over the block arithmetic of DenseBlock and the formula of DenseSpec; the reference's
  spelling of the same formula is DenseHost. The reference's run is the generated one. The idealization rewrote no
  operation, so `preserves` is trivial, and the three frame claims are the generated frames.
-/
import proofs.«106707_j49323404427966_1_alg».proof.Defs
import proofs.«106707_j49323404427966_1_alg».proof.Proof.Gen.Kernel
import proofs.«106707_j49323404427966_1_alg».proof.Proof.Gen.Kernel.Skeleton
import proofs.«106707_j49323404427966_1_alg».proof.Proof.Gen.Kernel.Launch
import proofs.«106707_j49323404427966_1_alg».proof.Proof.Gen.Kernel.Points
import proofs.«106707_j49323404427966_1_alg».proof.Proof.Gen.Kernel.Frame
import proofs.«106707_j49323404427966_1_alg».proof.Proof.Gen.KernelIdeal
import proofs.«106707_j49323404427966_1_alg».proof.Proof.Gen.KernelIdeal.Skeleton
import proofs.«106707_j49323404427966_1_alg».proof.Proof.Gen.KernelIdeal.Launch
import proofs.«106707_j49323404427966_1_alg».proof.Proof.Gen.KernelIdeal.Points
import proofs.«106707_j49323404427966_1_alg».proof.Proof.Gen.KernelIdeal.Frame
import proofs.«106707_j49323404427966_1_alg».proof.Proof.Gen.ReferenceIdeal
import proofs.«106707_j49323404427966_1_alg».proof.Proof.Gen.Pre_finite_inputs
import proofs.«106707_j49323404427966_1_alg».proof.Proof.Gen.ReferenceIdeal.Run
import proofs.«106707_j49323404427966_1_alg».proof.Proof.KernelRun
import proofs.«106707_j49323404427966_1_alg».proof.Proof.Result0
import proofs.«106707_j49323404427966_1_alg».proof.Proof.Result1
import proofs.«106707_j49323404427966_1_alg».proof.Proof.Result2
import proofs.«106707_j49323404427966_1_alg».proof.Proof.Result3
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run, the four results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- The idealization rewrote nothing. -/
theorem preserves : Cert.preserves_Kernel_KernelIdeal := trivial

/-- From memories agreeing on the arguments both programs run, and each of the four results of the reference is the
    contents the kernel's result buffer ends with. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W20 m ρ c (Proc.devRef .tc Cert.KernelIdeal.main_v2),
    fun c => Cert.KernelIdeal.Gen.W20 m ρ c (Proc.devRef .tc Cert.KernelIdeal.main_v56),
    fun c => Cert.KernelIdeal.Gen.W20 m ρ c (Proc.devRef .tc Cert.KernelIdeal.main_v109),
    fun c => Cert.KernelIdeal.Gen.W20 m ρ c (Proc.devRef .tc Cert.KernelIdeal.main_v162),
    Cert.KernelIdeal.Fold.run_results m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨r0, r1, r2, r3, kept⟩ := h c
  exact ⟨r0.trans (Cert.Gcn.Results.result0 m ρ m' c a0 a3 a4),
    r1.trans (Cert.Gcn.Results.result1 m ρ m' c a0 a1 a2 a5 a6),
    r2.trans (Cert.Gcn.Results.result2 m ρ m' c a0 a1 a2 a5 a6),
    r3.trans (Cert.Gcn.Results.result3 m ρ m' c a0 a1 a2 a5 a6), kept⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
